-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S384x128 .f32) (main_arg6 : FVec F S384 .f32) (main_arg7 : FVec F S384 .f32) (main_arg8 : FVec F S128x128 .f32) (main_arg9 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg7
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S600000 .f32) (main_arg3 : FVec F S128x128 .f32) (main_arg4 : FVec F S384x128 .f32) (main_arg5 : FVec F S384x128 .f32) (main_arg6 : FVec F S384 .f32) (main_arg7 : FVec F S384 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S384x128 .f32 := Host.absf main_arg4
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S128 : Shape := ⟨1, ![128]⟩
abbrev S128x384 : Shape := ⟨2, ![128, 384]⟩
abbrev S1x384 : Shape := ⟨2, ![1, 384]⟩
abbrev S_ : Shape := ⟨0, ![]⟩
abbrev S50000 : Shape := ⟨1, ![50000]⟩
abbrev S1x600000 : Shape := ⟨2, ![1, 600000]⟩
abbrev S650000 : Shape := ⟨1, ![650000]⟩
abbrev S650000x1 : Shape := ⟨2, ![650000, 1]⟩
abbrev S650000x128 : Shape := ⟨2, ![650000, 128]⟩
abbrev S1x128 : Shape := ⟨2, ![1, 128]⟩
abbrev S5000x128 : Shape := ⟨2, ![5000, 128]⟩

abbrev nBuf : Space → Nat
  | .hbm => 114
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S50000, .i32⟩
  | .hbm, ⟨54, _⟩ => ⟨S1x600000, .i32⟩
  | .hbm, ⟨55, _⟩ => ⟨S600000, .i32⟩
  | .hbm, ⟨56, _⟩ => ⟨S650000, .i32⟩
  | .hbm, ⟨57, _⟩ => ⟨S1x600000, .i32⟩
  | .hbm, ⟨58, _⟩ => ⟨S600000, .i32⟩
  | .hbm, ⟨59, _⟩ => ⟨S650000, .i32⟩
  | .hbm, ⟨60, _⟩ => ⟨S_, .f32⟩
  | .hbm, ⟨61, _⟩ => ⟨S50000, .f32⟩
  | .hbm, ⟨62, _⟩ => ⟨S650000, .f32⟩
  | .hbm, ⟨63, _⟩ => ⟨S_, .f32⟩
  | .hbm, ⟨64, _⟩ => ⟨S50000, .f32⟩
  | .hbm, ⟨65, _⟩ => ⟨S650000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .i1⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000, .f32⟩
  | .hbm, ⟨84, _⟩ => ⟨S650000, .f32⟩
  | .hbm, ⟨85, _⟩ => ⟨S_, .i32⟩
  | .hbm, ⟨86, _⟩ => ⟨S650000, .i32⟩
  | .hbm, ⟨87, _⟩ => ⟨S650000, .i1⟩
  | .hbm, ⟨88, _⟩ => ⟨S_, .i32⟩
  | .hbm, ⟨89, _⟩ => ⟨S650000, .i32⟩
  | .hbm, ⟨90, _⟩ => ⟨S650000, .i32⟩
  | .hbm, ⟨91, _⟩ => ⟨S650000, .i32⟩
  | .hbm, ⟨92, _⟩ => ⟨S650000x1, .i32⟩
  | .hbm, ⟨93, _⟩ => ⟨S650000, .f32⟩
  | .hbm, ⟨94, _⟩ => ⟨S650000, .f32⟩
  | .hbm, ⟨95, _⟩ => ⟨S650000x1, .f32⟩
  | .hbm, ⟨96, _⟩ => ⟨S_, .i32⟩
  | .hbm, ⟨97, _⟩ => ⟨S650000, .i32⟩
  | .hbm, ⟨98, _⟩ => ⟨S650000, .i1⟩
  | .hbm, ⟨99, _⟩ => ⟨S_, .i32⟩
  | .hbm, ⟨100, _⟩ => ⟨S650000, .i32⟩
  | .hbm, ⟨101, _⟩ => ⟨S650000, .i32⟩
  | .hbm, ⟨102, _⟩ => ⟨S650000, .i32⟩
  | .hbm, ⟨103, _⟩ => ⟨S650000x1, .i32⟩
  | .hbm, ⟨104, _⟩ => ⟨S650000x128, .f32⟩
  | .hbm, ⟨105, _⟩ => ⟨S650000x128, .f32⟩
  | .hbm, ⟨106, _⟩ => ⟨S650000x128, .f32⟩
  | .hbm, ⟨107, _⟩ => ⟨S_, .f32⟩
  | .hbm, ⟨108, _⟩ => ⟨S50000x128, .f32⟩
  | .hbm, ⟨109, _⟩ => ⟨S650000x1, .i32⟩
  | .hbm, ⟨110, _⟩ => ⟨S50000x128, .f32⟩
  | .hbm, ⟨111, _⟩ => ⟨S128x128, .f32⟩
  | .hbm, ⟨112, _⟩ => ⟨S1x128, .f32⟩
  | .hbm, ⟨113, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_11 : Ref sig .tc := ⟨.hbm, 96, rfl⟩
abbrev main_v71 : Ref sig .tc := ⟨.hbm, 97, rfl⟩
abbrev main_v72 : Ref sig .tc := ⟨.hbm, 98, rfl⟩
abbrev main_c_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S128x128_S128x384_S128x384_1_0_0_1_n_n_wf : DotDims.WF S128x128 S128x384 S128x384 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v82) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v83) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v84) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v85) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S384x128 : Shape := ⟨2, ![384, 128]⟩
abbrev S384 : Shape := ⟨1, ![384]⟩
abbrev S128 : Shape := ⟨1, ![128]⟩
abbrev S128x384 : Shape := ⟨2, ![128, 384]⟩
abbrev S1x384 : Shape := ⟨2, ![1, 384]⟩
abbrev S_ : Shape := ⟨0, ![]⟩
abbrev S50000 : Shape := ⟨1, ![50000]⟩
abbrev S1x600000 : Shape := ⟨2, ![1, 600000]⟩
abbrev S650000 : Shape := ⟨1, ![650000]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S384x128, .f32⟩
  | .hbm, ⟨5, _⟩ => ⟨S384x128, .f32⟩
  | .hbm, ⟨6, _⟩ => ⟨S384, .f32⟩
  | .hbm, ⟨7, _⟩ => ⟨S384, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S128x384, .f32⟩
  | .hbm, ⟨12, _⟩ => ⟨S1x384, .f32⟩
  | .hbm, ⟨13, _⟩ => ⟨S128x384, .f32⟩
  | .hbm, ⟨14, _⟩ => ⟨S128x384, .f32⟩
  | .hbm, ⟨15, _⟩ => ⟨S128x384, .f32⟩
  | .hbm, ⟨16, _⟩ => ⟨S128x384, .f32⟩
  | .hbm, ⟨17, _⟩ => ⟨S1x384, .f32⟩
  | .hbm, ⟨18, _⟩ => ⟨S128x384, .f32⟩
  | .hbm, ⟨19, _⟩ => ⟨S128x384, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S50000, .i32⟩
  | .hbm, ⟨54, _⟩ => ⟨S1x600000, .i32⟩
  | .hbm, ⟨55, _⟩ => ⟨S600000, .i32⟩
  | .hbm, ⟨56, _⟩ => ⟨S650000, .i32⟩
  | .hbm, ⟨57, _⟩ => ⟨S1x600000, .i32⟩
  | .hbm, ⟨58, _⟩ => ⟨S600000, .i32⟩
  | .hbm, ⟨59, _⟩ => ⟨S650000, .i32⟩
  | .hbm, ⟨60, _⟩ => ⟨S_, .f32⟩
  | .hbm, ⟨61, _⟩ => ⟨S50000, .f32⟩
  | .hbm, ⟨62, _⟩ => ⟨S650000, .f32⟩
  | .hbm, ⟨63, _⟩ => ⟨S_, .f32⟩
  | .hbm, ⟨64, _⟩ => ⟨S50000, .f32⟩
  | .hbm, ⟨65, _⟩ => ⟨S650000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .i1⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000, .f32⟩
  | .hbm, ⟨84, _⟩ => ⟨S650000, .f32⟩
  | .hbm, ⟨85, _⟩ => ⟨S_, .i32⟩
  | .hbm, ⟨86, _⟩ => ⟨S650000, .i32⟩
  | .hbm, ⟨87, _⟩ => ⟨S650000, .i1⟩
  | .hbm, ⟨88, _⟩ => ⟨S_, .i32⟩
  | .hbm, ⟨89, _⟩ => ⟨S650000, .i32⟩
  | .hbm, ⟨90, _⟩ => ⟨S650000, .i32⟩
  | .hbm, ⟨91, _⟩ => ⟨S650000, .i32⟩
  | .hbm, ⟨92, _⟩ => ⟨S650000x1, .i32⟩
  | .hbm, ⟨93, _⟩ => ⟨S650000, .f32⟩
  | .hbm, ⟨94, _⟩ => ⟨S650000, .f32⟩
  | .hbm, ⟨95, _⟩ => ⟨S50000x128, .f32⟩
  | .hbm, ⟨96, _⟩ => ⟨S650000x1, .f32⟩
  | .hbm, ⟨97, _⟩ => ⟨S_, .i32⟩
  | .hbm, ⟨98, _⟩ => ⟨S650000, .i32⟩
  | .hbm, ⟨99, _⟩ => ⟨S650000, .i1⟩
  | .hbm, ⟨100, _⟩ => ⟨S_, .i32⟩
  | .hbm, ⟨101, _⟩ => ⟨S650000, .i32⟩
  | .hbm, ⟨102, _⟩ => ⟨S650000, .i32⟩
  | .hbm, ⟨103, _⟩ => ⟨S650000, .i32⟩
  | .hbm, ⟨104, _⟩ => ⟨S650000x1, .i32⟩
  | .hbm, ⟨105, _⟩ => ⟨S650000x128, .f32⟩
  | .hbm, ⟨106, _⟩ => ⟨S650000x128, .f32⟩
  | .hbm, ⟨107, _⟩ => ⟨S650000x128, .f32⟩
  | .hbm, ⟨108, _⟩ => ⟨S_, .f32⟩
  | .hbm, ⟨109, _⟩ => ⟨S50000x128, .f32⟩
  | .hbm, ⟨110, _⟩ => ⟨S650000x1, .i32⟩
  | .hbm, ⟨111, _⟩ => ⟨S50000x128, .f32⟩
  | .hbm, ⟨112, _⟩ => ⟨S_, .f32⟩
  | .hbm, ⟨113, _⟩ => ⟨S50000x128, .f32⟩
  | .hbm, ⟨114, _⟩ => ⟨S50000x128, .f32⟩
  | .hbm, ⟨115, _⟩ => ⟨S128x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call0_v0 : Ref sig .tc := ⟨.hbm, 72, rfl⟩
abbrev main_call0_v1 : Ref sig .tc := ⟨.hbm, 73, rfl⟩
abbrev main_v53 : Ref sig .tc := ⟨.hbm, 74, rfl⟩
abbrev main_c : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_9 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_11 : Ref sig .tc := ⟨.hbm, 97, rfl⟩
abbrev main_v72 : Ref sig .tc := ⟨.hbm, 98, rfl⟩
abbrev main_v73 : Ref sig .tc := ⟨.hbm, 99, rfl⟩
abbrev main_c_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S128x384_0_1 : S1x384.BroadcastsInDim S128x384 (![0, 1] : Fin 2 → Fin S128x384.rank)
  slices_S128x384_S128x128_0_0 : S128x384.Slices ![0, 0] S128x128
  slices_S128x384_S128x128_0_128 : S128x384.Slices ![0, 128] S128x128
  slices_S128x384_S128x128_0_256 : S128x384.Slices ![0, 256] S128x128
  bcast_S_S128x128 : S_.BroadcastsInDim S128x128 (![] : Fin 0 → Fin S128x128.rank)
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S128x128_S128x384_S128x384_1_0_0_1_n_n_wf : DotDims.WF S128x128 S128x384 S128x384 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.KernelBody.lean ====
/-
  The kernel body's one store, read at an index.

  On a block of 5000 aggregated rows `h`, with the evolved weights `w`, the transposed output weights `l` and the bias
  row `b`, the body writes `max (h · w) 0 · l + b`: entry `(p, q)` is
  `(∑ k₂, max (∑ k, h (p, k) · w (k, k₂)) 0 · l (k₂, q)) + b (0, q)`.  The two roundings to the narrow float format
  before each product are the identity on the extended reals.
-/
import proofs.«123973_j3770981286463_2_alg».proof.Proof.Gen.KernelIdeal.Skeleton
import proofs.«123973_j3770981286463_2_alg».proof.Proof.LibPlainProduct
import Idealize.ShloMosaic.Lib.ValueLayout
import Idealize.ShloMosaic.Lib.Pipeline.Value
import Idealize.ShloMosaic.PureOps.Ideal.Laws

noncomputable section

namespace Cert.KernelBody

open Cert.KernelIdeal Cert.KernelIdeal.Gen Idealize.ShloMosaic Idealize.ShloMosaic.ValueIdx Cert.PlainProduct

/-- The body's product records are the plain `[5000, 128] × [128, 128]` product. -/
theorem dot_plain : dot_S5000x128_S128x128_S5000x128_1_0_0_1_n_n = DotDims.plain 5000 128 128 := rfl

/-- THE STORED BLOCK AT `(p, q)`. -/
theorem pay_apply (h : Vec Ideal S5000x128 .f32) (w l : Vec Ideal S128x128 .f32) (b : Vec Ideal S1x128 .f32)
    (p : Fin 5000) (q : Fin 128) :
    k0_pay1 (F := Ideal) h w l b (ix2 p q)
      = (∑ k₂ : Fin 128, max (∑ k : Fin 128, h (ix2 p k) * w (ix2 k k₂)) 0 * l (ix2 k₂ q)) + b (ix2 (0 : Fin 1) q) := by
  unfold k0_pay1
  rw [addf_apply, matmul_plain_apply _ dot_plain, broadcastTo_1b_ab_apply]
  simp only [shapeCast_self]
  congr 1
  refine Finset.sum_congr rfl fun k₂ _ => ?_
  rw [truncf_apply, maximumf_apply, matmul_plain_apply _ dot_plain, broadcast_apply]
  simp only [truncf_apply, shapeCast_self]
  congr 2
  exact Ideal.ofBits_zero_f32

end Cert.KernelBody

end
-- ==== Proof.KernelBlocks.lean ====
/-
  The blocks the region reads, as pieces of the arrays it finds.

  The region runs over ten grid points; point `t` reads rows `5000·t … 5000·t + 4999` of the aggregated rows, and the
  whole of the evolved weights, of the transposed output weights and of the bias row.  Stated here: the printed index
  maps over the grid, and a block of ANY array standing in a window's place, read at an index, as that array read at the
  corresponding index.  (The arrays are variables here on purpose: what the region actually finds is a long composition
  of host operations, which nothing in this file needs to look into.)
-/
import proofs.«123973_j3770981286463_2_alg».proof.Proof.Gen.KernelIdeal.Value
import Idealize.ShloMosaic.Lib.ValueIdx
import Idealize.ShloMosaic.PureOps.Ideal

noncomputable section

namespace Cert.KernelBlocks

open Cert.KernelIdeal Cert.KernelIdeal.Gen Idealize.ShloMosaic Idealize.ShloMosaic.TcCoe Idealize.SL.Sem
open Idealize.ShloMosaic.ValueIdx

theorem hz : (![0, 0] : Fin 2 → Nat) = fun _ => 0 := funext fun a => by fin_cases a <;> rfl

/-- The printed index maps over the grid: the aggregated rows and the result move down one block of rows per point;
    the weights, the output weights and the bias stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The grid has ten points. -/
theorem t_lt (t : Fin cfg0.N) : t.val < 10 := by
  have h : t.val < grid0.N := t.isLt
  rw [N_0] at h
  exact h

/-- Row `p` of point `t`'s block is row `5000·t + p` of the array. -/
def rowOf (t : Fin cfg0.N) (p : Fin 5000) : Fin 50000 := ⟨t.val * 5000 + p.val, by have := t_lt t; have := p.isLt; omega⟩

theorem rowOf_val (t : Fin cfg0.N) (p : Fin 5000) : (rowOf t p).val = t.val * 5000 + p.val := rfl

/-- The first window's block at point `t`, read at `(p, k)`: row `5000·t + p` of its array. -/
theorem read0 (c : Dev nD) (t : Fin cfg0.N) (p : Fin 5000) (k : Fin 128)
    (X : Buf (Elt Ideal) ((c : Thread nD τ).loc (Pipeline.arrRef spec0 0))) :
    ((cfg0.win 0).blk t).view.read (Elt Ideal) X (ix2 p k) = X (ix2 (rowOf t p) k) := by
  obtain ⟨e0, e1, -⟩ := idx_facts t
  have hemb : ((cfg0.win 0).blk t).view.emb (ix2 p k) = ix2 (rowOf t p) k := by
    funext x; apply Fin.ext
    match x with
    | ⟨0, _⟩ => show win0_0.index t (0 : Fin 2) * 5000 + 1 * p.val = t.val * 5000 + p.val; omega
    | ⟨1, _⟩ => show win0_0.index t (1 : Fin 2) * 128 + 1 * k.val = k.val; omega
  show X (((cfg0.win 0).blk t).view.emb (ix2 p k)) = X (ix2 (rowOf t p) k)
  rw [hemb]

/-- The second window's block is its whole array at every point. -/
theorem read1 (c : Dev nD) (t : Fin cfg0.N) (a b : Fin 128)
    (X : Buf (Elt Ideal) ((c : Thread nD τ).loc (Pipeline.arrRef spec0 1))) :
    ((cfg0.win 1).blk t).view.read (Elt Ideal) X (ix2 a b) = X (ix2 a b) := by
  obtain ⟨-, -, e0, e1, -⟩ := idx_facts t
  have hemb : ((cfg0.win 1).blk t).view.emb (ix2 a b) = ix2 a b := by
    funext x; apply Fin.ext
    match x with
    | ⟨0, _⟩ => show win0_1.index t (0 : Fin 2) * 128 + 1 * a.val = a.val; omega
    | ⟨1, _⟩ => show win0_1.index t (1 : Fin 2) * 128 + 1 * b.val = b.val; omega
  show X (((cfg0.win 1).blk t).view.emb (ix2 a b)) = X (ix2 a b)
  rw [hemb]

/-- So is the third's … -/
theorem read2 (c : Dev nD) (t : Fin cfg0.N) (a b : Fin 128)
    (X : Buf (Elt Ideal) ((c : Thread nD τ).loc (Pipeline.arrRef spec0 2))) :
    ((cfg0.win 2).blk t).view.read (Elt Ideal) X (ix2 a b) = X (ix2 a b) := by
  obtain ⟨-, -, -, -, e0, e1, -⟩ := idx_facts t
  have hemb : ((cfg0.win 2).blk t).view.emb (ix2 a b) = ix2 a b := by
    funext x; apply Fin.ext
    match x with
    | ⟨0, _⟩ => show win0_2.index t (0 : Fin 2) * 128 + 1 * a.val = a.val; omega
    | ⟨1, _⟩ => show win0_2.index t (1 : Fin 2) * 128 + 1 * b.val = b.val; omega
  show X (((cfg0.win 2).blk t).view.emb (ix2 a b)) = X (ix2 a b)
  rw [hemb]

/-- … and the fourth's. -/
theorem read3 (c : Dev nD) (t : Fin cfg0.N) (a : Fin 1) (b : Fin 128)
    (X : Buf (Elt Ideal) ((c : Thread nD τ).loc (Pipeline.arrRef spec0 3))) :
    ((cfg0.win 3).blk t).view.read (Elt Ideal) X (ix2 a b) = X (ix2 a b) := by
  obtain ⟨-, -, -, -, -, -, e0, e1, -⟩ := idx_facts t
  have hemb : ((cfg0.win 3).blk t).view.emb (ix2 a b) = ix2 a b := by
    funext x; apply Fin.ext
    match x with
    | ⟨0, _⟩ => show win0_3.index t (0 : Fin 2) * 1 + 1 * a.val = a.val; omega
    | ⟨1, _⟩ => show win0_3.index t (1 : Fin 2) * 128 + 1 * b.val = b.val; omega
  show X (((cfg0.win 3).blk t).view.emb (ix2 a b)) = X (ix2 a b)
  rw [hemb]

/-- The output window's block at point `t` sits at rows `5000·t …` of the result. -/
theorem emb4 (t : Fin cfg0.N) (y : S5000x128.Idx) :
    ((cfg0.win 4).blk t).view.emb y = ix2 (rowOf t (y 0)) (y 1) := by
  obtain ⟨-, -, -, -, -, -, -, -, e0, e1⟩ := idx_facts t
  funext a; apply Fin.ext
  match a with
  | ⟨0, _⟩ => show win0_4.index t (0 : Fin 2) * 5000 + 1 * (y 0).val = t.val * 5000 + (y 0).val; omega
  | ⟨1, _⟩ => show win0_4.index t (1 : Fin 2) * 128 + 1 * (y 1).val = (y 1).val; omega

end Cert.KernelBlocks

end
-- ==== Proof.Dense.lean ====
/-
  The rectified two-layer product `max (H · W) 0 · L + B` of a matrix of 50000 rows, as a function of its four
  operands: entry `(n, j)` is `(∑ k₂, max (∑ k, H (n, k) · W (k, k₂)) 0 · L (k₂, j)) + B (0, j)`.  It depends on row `n`
  of `H` only, which is why a kernel may compute it one block of rows at a time.
-/
import proofs.«123973_j3770981286463_2_alg».proof.KernelIdeal
import Idealize.ShloMosaic.Lib.ValueIdx
import Idealize.ShloMosaic.PureOps.Ideal

noncomputable section

namespace Cert.KernelValue

open Cert.KernelIdeal Idealize.ShloMosaic Idealize.ShloMosaic.ValueIdx

/-- Entry `(n, j)` of `max (H · W) 0 · L + B`. -/
def denseAt (H : FVec Ideal S50000x128 .f32) (W L : FVec Ideal S128x128 .f32) (B : FVec Ideal S1x128 .f32)
    (n : Fin 50000) (j : Fin 128) : EReal :=
  (∑ k₂ : Fin 128, max (∑ k : Fin 128, H (ix2 n k) * W (ix2 k k₂)) 0 * L (ix2 k₂ j)) + B (ix2 (0 : Fin 1) j)

/-- The rectified two-layer product, as a whole array. -/
def dense (H : FVec Ideal S50000x128 .f32) (W L : FVec Ideal S128x128 .f32) (B : FVec Ideal S1x128 .f32) :
    FVec Ideal S50000x128 .f32 :=
  fun i => denseAt H W L B (i 0) (i 1)

end Cert.KernelValue

end
-- ==== Proof.KernelValue.lean ====
/-
  The kernel's result array as ONE function of the four arrays its region reads.

  The region runs over ten grid points; point `t` reads rows `5000·t … 5000·t + 4999` of the aggregated rows `H`, the
  whole of the evolved weights `W`, of the transposed output weights `L` and of the bias row `B`, and writes the same
  rows of the result.  Since entry `(n, j)` of `max (H · W) 0 · L + B` depends on row `n` of `H` only, every block the
  region writes is the restriction of one whole-array function, `dense H W L B`, and the ten blocks tile the result.
-/
import proofs.«123973_j3770981286463_2_alg».proof.Proof.Gen.KernelIdeal.Value
import proofs.«123973_j3770981286463_2_alg».proof.Proof.KernelBody
import proofs.«123973_j3770981286463_2_alg».proof.Proof.KernelBlocks
import proofs.«123973_j3770981286463_2_alg».proof.Proof.Dense

noncomputable section

namespace Cert.KernelValue

open Cert.KernelIdeal Cert.KernelIdeal.Gen Idealize.ShloMosaic Idealize.ShloMosaic.TcCoe Idealize.SL.Sem
open Idealize.ShloMosaic.ValueIdx Cert.KernelBlocks
open Idealize.ShloMosaic.Pipeline (Dat)

set_option maxHeartbeats 2000000 in
/-- WHAT THE BODY LEAVES AT POINT `t`, for ANY four arrays standing in the input windows' places: block `t` of
    `dense` of those arrays. -/
theorem block_eq (c : Dev nD) (t : Fin cfg0.N) (X0 : Buf (Elt Ideal) ((c : Thread nD τ).loc (Pipeline.arrRef spec0 0))) (X1 : Buf (Elt Ideal) ((c : Thread nD τ).loc (Pipeline.arrRef spec0 1))) (X2 : Buf (Elt Ideal) ((c : Thread nD τ).loc (Pipeline.arrRef spec0 2))) (X3 : Buf (Elt Ideal) ((c : Thread nD τ).loc (Pipeline.arrRef spec0 3))) :
    (cfg0.win 4).cut (grid0.coords t) (out0_4 (((cfg0.win 0).blk t).view.read (Elt Ideal) X0) (((cfg0.win 1).blk t).view.read (Elt Ideal) X1) (((cfg0.win 2).blk t).view.read (Elt Ideal) X2) (((cfg0.win 3).blk t).view.read (Elt Ideal) X3))
      = ((cfg0.win 4).blk t).view.read (Elt Ideal) (dense X0 X1 X2 X3) := by
  unfold out0_4
  rw [View.canon_unit_zero hz]
  simp only [View.ld_unit_zero (S := S5000x128) hz, View.ld_unit_zero (S := S128x128) hz, View.ld_unit_zero (S := S1x128) hz]
  funext (y : S5000x128.Idx)
  show k0_pay1 (F := Ideal) (((cfg0.win 0).blk t).view.read (Elt Ideal) X0) (((cfg0.win 1).blk t).view.read (Elt Ideal) X1) (((cfg0.win 2).blk t).view.read (Elt Ideal) X2) (((cfg0.win 3).blk t).view.read (Elt Ideal) X3) y
      = dense X0 X1 X2 X3 (((cfg0.win 4).blk t).view.emb y)
  rw [emb4 t y]
  show k0_pay1 (F := Ideal) (((cfg0.win 0).blk t).view.read (Elt Ideal) X0) (((cfg0.win 1).blk t).view.read (Elt Ideal) X1) (((cfg0.win 2).blk t).view.read (Elt Ideal) X2) (((cfg0.win 3).blk t).view.read (Elt Ideal) X3) y
      = denseAt X0 X1 X2 X3 (rowOf t (y 0)) (y 1)
  conv_lhs => rw [eq_ix2 y]
  refine (Cert.KernelBody.pay_apply (((cfg0.win 0).blk t).view.read (Elt Ideal) X0) (((cfg0.win 1).blk t).view.read (Elt Ideal) X1) (((cfg0.win 2).blk t).view.read (Elt Ideal) X2) (((cfg0.win 3).blk t).view.read (Elt Ideal) X3) (y 0) (y 1)).trans ?_
  unfold denseAt
  exact congrArg₂ (· + ·)
    (Finset.sum_congr rfl fun k₂ _ => congrArg₂ (· * ·)
      (congrArg (max · (0 : EReal)) (Finset.sum_congr rfl fun k _ => congrArg₂ (· * ·) (read0 c t (y 0) k X0) (read1 c t k k₂ X1)))
      (read2 c t k₂ (y 1) X2))
    (read3 c t (0 : Fin 1) (y 1) X3)

variable (m : (ℓ : Loc nD τ sig) → Buf (Elt Ideal) ℓ) (ρ : Dev nD → PrngReg)

/-- `dense` of the four arrays as the region finds them.  (A definition, not an abbreviation: what the region finds is a
    long composition of host operations, and nothing below should look into it.) -/
def found (c : Dev nD) : FVec Ideal S50000x128 .f32 := dense (V m c (Pipeline.arrRef spec0 0)) (V m c (Pipeline.arrRef spec0 1)) (V m c (Pipeline.arrRef spec0 2)) (V m c (Pipeline.arrRef spec0 3))

theorem found_def (c : Dev nD) : found m c = dense (V m c (Pipeline.arrRef spec0 0)) (V m c (Pipeline.arrRef spec0 1)) (V m c (Pipeline.arrRef spec0 2)) (V m c (Pipeline.arrRef spec0 3)) := rfl

/-- WHAT POINT `t` WRITES BACK is block `t` of `dense` of the four arrays as the region finds them. -/
theorem flushed_eq (c : Dev nD) (t : Fin cfg0.N) :
    (dats m 0 c).flushed 4 t = ((cfg0.win 4).blk t).view.read (Elt Ideal) (found m c) :=
  (Cert.KernelIdeal.Value.flushed4 m c t).trans (block_eq c t (V m c (Pipeline.arrRef spec0 0)) (V m c (Pipeline.arrRef spec0 1)) (V m c (Pipeline.arrRef spec0 2)) (V m c (Pipeline.arrRef spec0 3)))

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v85).slice (win0_4.rect t)).set ↔ _
  rw [View.set_slice_whole, Rect.mem_set_unit]
  exact Iff.rfl

/-- THE BLOCKS TILE THE RESULT: row `r` lies in the block of point `r / 5000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : (i 0).val / 5000 < grid0.N := by rw [N_0]; omega
  obtain ⟨-, -, -, -, -, -, -, -, e0, e1⟩ := idx_facts (⟨(i 0).val / 5000, hN⟩ : Fin cfg0.N)
  have e0' : win0_4.index (⟨(i 0).val / 5000, hN⟩ : Fin cfg0.N) (0 : Fin 2) = (i 0).val / 5000 := e0
  refine ⟨⟨(i 0).val / 5000, hN⟩, flush0_4 _, ?_⟩
  rw [mem_blk]
  intro a
  match a with
  | ⟨0, _⟩ =>
    show win0_4.index (⟨(i 0).val / 5000, hN⟩ : Fin cfg0.N) (0 : Fin 2) * 5000 ≤ (i 0).val
      ∧ (i 0).val < win0_4.index (⟨(i 0).val / 5000, hN⟩ : Fin cfg0.N) (0 : Fin 2) * 5000 + 5000
    omega
  | ⟨1, _⟩ =>
    show win0_4.index (⟨(i 0).val / 5000, hN⟩ : Fin cfg0.N) (1 : Fin 2) * 128 ≤ (i 1).val
      ∧ (i 1).val < win0_4.index (⟨(i 0).val / 5000, hN⟩ : Fin cfg0.N) (1 : Fin 2) * 128 + 128
    omega

/-- THE RESULT ARRAY after the run is `dense` of the four arrays the region found. -/
theorem final (c : Dev nD) : (dats m 0 c).arrAt 4 cfg0.N = found m c :=
  (dats m 0 c).arrAt_eq_of_cover 4 (found m c) (fun t _ => flushed_eq m c t) cover

end Cert.KernelValue

end
-- ==== Proof.HostValues.lean ====
/-
  Reading the arrays the region finds as terms of the program's arguments.

  Before the region the program runs its host operations one after another, each writing one new array.  The contents
  of an array when the region is entered are therefore a composition of those operations applied to the argument
  arrays.  Two spellings stand in the way of reading that composition off by rewriting, and are removed here: a
  concatenation of two pieces carries a side condition that mentions its list of pieces, so the pieces are not
  ordinary arguments (`cat2` makes them so); and the operations of the called function `where` move values between
  a buffer's declared type and its looked-up type, which are the same type (the moves are the identity).
-/
import proofs.«123973_j3770981286463_2_alg».proof.Proof.Gen.KernelIdeal.Frame
import Idealize.ShloMosaic.Lib.StableHlo.Run
import Idealize.ShloMosaic.PureOps.Ideal

noncomputable section

namespace Cert.KernelHost

open Cert.KernelIdeal Cert.KernelIdeal.Gen Idealize.ShloMosaic Idealize.ShloMosaic.TcCoe Idealize.SL.Sem Idealize.ShloMosaic.StableHlo

/-- A two-piece concatenation with the pieces as plain arguments. -/
def cat2 {α : Type} (t : Shape) (a : Fin t.rank) {s₁ s₂ : Shape} (x₁ : s₁.Idx → α) (x₂ : s₂.Idx → α)
    (h : Shape.Concatenates [s₁, s₂] t a) : t.Idx → α := concatenate t a [⟨s₁, x₁⟩, ⟨s₂, x₂⟩] h

theorem concatenate_eq_cat2 {α : Type} (t : Shape) (a : Fin t.rank) {s₁ s₂ : Shape} (x₁ : s₁.Idx → α) (x₂ : s₂.Idx → α)
    (h : Shape.Concatenates [s₁, s₂] t a) : concatenate t a [⟨s₁, x₁⟩, ⟨s₂, x₂⟩] h = cat2 t a x₁ x₂ h := rfl

/-! The moves between a buffer's declared and looked-up type are the identity, buffer by buffer. -/

theorem toBuf_main_cst_7 (p1 p2 p3) (v : (⟨S_, .f32⟩ : BufTy).Contents (Elt Ideal)) :
    (TRef.of main_cst_7 p1 p2 p3 : TRef sig ⟨S_, .f32⟩).toBuf v = v := rfl
theorem ofBuf_main_cst_7 (p1 p2 p3) (v : main_cst_7.ty.Contents (Elt Ideal)) :
    (TRef.of main_cst_7 p1 p2 p3 : TRef sig ⟨S_, .f32⟩).ofBuf v = v := rfl
theorem toBuf_main_call0_v0 (p1 p2 p3) (v : (⟨S_, .f32⟩ : BufTy).Contents (Elt Ideal)) :
    (TRef.of main_call0_v0 p1 p2 p3 : TRef sig ⟨S_, .f32⟩).toBuf v = v := rfl
theorem ofBuf_main_call0_v0 (p1 p2 p3) (v : main_call0_v0.ty.Contents (Elt Ideal)) :
    (TRef.of main_call0_v0 p1 p2 p3 : TRef sig ⟨S_, .f32⟩).ofBuf v = v := rfl
theorem toBuf_main_call0_v1 (p1 p2 p3) (v : (⟨S50000, .f32⟩ : BufTy).Contents (Elt Ideal)) :
    (TRef.of main_call0_v1 p1 p2 p3 : TRef sig ⟨S50000, .f32⟩).toBuf v = v := rfl
theorem ofBuf_main_call0_v1 (p1 p2 p3) (v : main_call0_v1.ty.Contents (Elt Ideal)) :
    (TRef.of main_call0_v1 p1 p2 p3 : TRef sig ⟨S50000, .f32⟩).ofBuf v = v := rfl
theorem toBuf_main_v51 (p1 p2 p3) (v : (⟨S50000, .i1⟩ : BufTy).Contents (Elt Ideal)) :
    (TRef.of main_v51 p1 p2 p3 : TRef sig ⟨S50000, .i1⟩).toBuf v = v := rfl
theorem ofBuf_main_v51 (p1 p2 p3) (v : main_v51.ty.Contents (Elt Ideal)) :
    (TRef.of main_v51 p1 p2 p3 : TRef sig ⟨S50000, .i1⟩).ofBuf v = v := rfl
theorem toBuf_main_v52 (p1 p2 p3) (v : (⟨S50000, .f32⟩ : BufTy).Contents (Elt Ideal)) :
    (TRef.of main_v52 p1 p2 p3 : TRef sig ⟨S50000, .f32⟩).toBuf v = v := rfl
theorem ofBuf_main_v52 (p1 p2 p3) (v : main_v52.ty.Contents (Elt Ideal)) :
    (TRef.of main_v52 p1 p2 p3 : TRef sig ⟨S50000, .f32⟩).ofBuf v = v := rfl
theorem toBuf_main_v53 (p1 p2 p3) (v : (⟨S50000, .f32⟩ : BufTy).Contents (Elt Ideal)) :
    (TRef.of main_v53 p1 p2 p3 : TRef sig ⟨S50000, .f32⟩).toBuf v = v := rfl
theorem ofBuf_main_v53 (p1 p2 p3) (v : main_v53.ty.Contents (Elt Ideal)) :
    (TRef.of main_v53 p1 p2 p3 : TRef sig ⟨S50000, .f32⟩).ofBuf v = v := rfl

/-- Evaluate the host operations before the region at one array, as one rewriting pass. -/
macro "host_values" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_eq_cat2, toBuf_main_cst_7, ofBuf_main_cst_7, toBuf_main_call0_v0, ofBuf_main_call0_v0, toBuf_main_call0_v1, ofBuf_main_call0_v1, toBuf_main_v51, ofBuf_main_v51, toBuf_main_v52, ofBuf_main_v52, toBuf_main_v53, ofBuf_main_v53]))

end Cert.KernelHost

end
-- ==== Proof.KernelHostW.lean ====
/-
  What the region finds in its weight arrays: the evolved weights are the same composition of operations of the
  arguments as the reference program's evolved weights (one gated recurrent step of the initial weights on
  themselves), the output weights are the transpose of the argument, and the bias row is the bias vector laid out as
  one row.
-/
import proofs.«123973_j3770981286463_2_alg».proof.Proof.HostValues
import proofs.«123973_j3770981286463_2_alg».proof.Proof.Gen.ReferenceIdeal.Read

noncomputable section

namespace Cert.KernelHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
set_option maxHeartbeats 4000000 in
/-- The evolved weights the region finds are the reference's evolved weights of the kernel's arguments. -/
theorem weights_eq (c : Dev nD) : (V m c main_v37 : FVec Ideal S128x128 .f32)
    = (Cert.ReferenceIdeal.Read.val_main_v37 (F := Ideal) (m (c, Proc.devRef .tc main_arg3)) (m (c, Proc.devRef .tc main_arg4)) (m (c, Proc.devRef .tc main_arg5)) (m (c, Proc.devRef .tc main_arg6)) (m (c, Proc.devRef .tc main_arg7)) : FVec Ideal Cert.ReferenceIdeal.S128x128 .f32) := by
  dsimp only [Gen.V]
  simp only [Gen.hostOps0, Gen.hostOps0_1, Gen.hostOps0_2, List.flatten_cons, List.flatten_nil, List.append_nil, List.cons_append, List.nil_append]
  host_values
  rfl

set_option maxHeartbeats 4000000 in
/-- The output weights the region finds are the reference's transposed output weights. -/
theorem outWeights_eq (c : Dev nD) : (V m c main_v83 : FVec Ideal S128x128 .f32)
    = (Cert.ReferenceIdeal.Read.val_main_v85 (F := Ideal) (m (c, Proc.devRef .tc main_arg8)) : FVec Ideal Cert.ReferenceIdeal.S128x128 .f32) := by
  dsimp only [Gen.V]
  simp only [Gen.hostOps0, Gen.hostOps0_1, Gen.hostOps0_2, List.flatten_cons, List.flatten_nil, List.append_nil, List.cons_append, List.nil_append]
  host_values
  rfl

/-- The bias row the region finds is the bias vector reshaped to one row. -/
theorem biasRow_eq (c : Dev nD) : (V m c main_v84 : FVec Ideal S1x128 .f32)
    = shapeCast S1x128 (m (c, Proc.devRef .tc main_arg9)) shapeCasts_S128_S1x128 := by
  dsimp only [Gen.V]
  simp only [Gen.hostOps0, Gen.hostOps0_1, Gen.hostOps0_2, List.flatten_cons, List.flatten_nil, List.append_nil, List.cons_append, List.nil_append]
  host_values
  rfl

end Cert.KernelHost

end
-- ==== Proof.KernelHostH.lean ====
/-
  What the region finds in its first array: the aggregated rows.  They are the reference program's own scatter
  targets, coefficient column and wrapped source indices — the same compositions of operations of the edge arguments
  — applied to the node features themselves rather than to the node features times the evolved weights.
-/
import proofs.«123973_j3770981286463_2_alg».proof.Proof.HostValues
import proofs.«123973_j3770981286463_2_alg».proof.Proof.Gen.ReferenceIdeal.Read

noncomputable section

namespace Cert.KernelHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 8000000 in
/-- The aggregated rows the region finds. -/
theorem aggregated_eq (c : Dev nD) : (V m c main_v82 : FVec Ideal S50000x128 .f32)
    = (Host.scatterAdd (F := Ideal) Cert.ReferenceIdeal.scatter_S50000x128_S650000x1_S650000x128_1_0_0_1
        (Cert.ReferenceIdeal.Read.val_main_v81 (F := Ideal))
        (Cert.ReferenceIdeal.Read.val_main_v82 (F := Ideal) (m (c, Proc.devRef .tc main_arg1)))
        (mulf (Cert.ReferenceIdeal.Read.val_main_v79 (F := Ideal) (m (c, Proc.devRef .tc main_arg1)) (m (c, Proc.devRef .tc main_arg2)))
          (Host.gather Cert.ReferenceIdeal.gather_S50000x128_S650000x1_S650000x128_1_0_n_n_0_1_1128
            (m (c, Proc.devRef .tc main_arg0))
            (Cert.ReferenceIdeal.Read.val_main_v77 (F := Ideal) (m (c, Proc.devRef .tc main_arg1))))) : FVec Ideal Cert.ReferenceIdeal.S50000x128 .f32) := by
  dsimp only [Gen.V]
  simp only [Gen.hostOps0, Gen.hostOps0_1, Gen.hostOps0_2, List.flatten_cons, List.flatten_nil, List.append_nil, List.cons_append, List.nil_append]
  host_values
  rfl

end Cert.KernelHost

end
-- ==== Proof.LibAggregate.lean ====
/-
  Weighted row aggregation over a list of edges, read at an index, and its commutation with a matrix product.

  An edge list gives every edge `e` a source row, a target row and a coefficient.  "Aggregation" of a matrix `X : [N, C]`
  takes for every edge the source row of `X`, scales it by the edge's coefficient, and adds it into the target row of an
  `[N, C]` accumulator: a row gather, a pointwise product with the coefficients laid along the rows, and an
  accumulating row scatter.  Read at `(n, k)` the result is `Z (n, k) + ∑ e, [target e = n] · c e · X (source e, k)`.

  Aggregation is linear in `X`, so it commutes with multiplying on the right by a matrix `W`:
  `(aggregate X) · W = aggregate (X · W)`, PROVIDED the coefficients and the entries of `X` and `W` are real numbers —
  on the extended reals the distributive law behind it fails at the infinities.
-/
import Idealize.ShloMosaic.Lib.ValueIdx
import Idealize.ShloMosaic.Lib.StackMember
import Idealize.ShloMosaic.Lib.KernelVsHost

noncomputable section

open scoped BigOperators

namespace Cert.Aggregate

open Idealize.ShloMosaic Idealize.ShloMosaic.ValueIdx Idealize.ShloMosaic.StackMember

/-! ## Sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for real coefficients `c`, real rows `x e` and a real column `w`, scaling-and-summing the rows over a set
    of edges and then contracting with `w` is contracting every row with `w` first and then scaling-and-summing.
    Both sides are the coercion of the same real double sum. -/
theorem sum_scaled_rows_mul {ι κ : Type*} [Fintype κ] (S : Finset ι) (c : ι → ℝ) (x : ι → κ → ℝ) (w : κ → ℝ) :
    ∑ k, (∑ e ∈ S, (c e : EReal) * (x e k : EReal)) * (w k : EReal)
      = ∑ e ∈ S, (c e : EReal) * ∑ k, (x e k : EReal) * (w k : EReal) := by
  have hl : ∀ k, (∑ e ∈ S, (c e : EReal) * (x e k : EReal)) * (w k : EReal)
      = ((( ∑ e ∈ S, c e * x e k) * w k : ℝ) : EReal) := by
    intro k
    rw [EReal.coe_mul, coe_finset_sum]
    simp only [EReal.coe_mul]
  have hr : ∀ e, (c e : EReal) * ∑ k, (x e k : EReal) * (w k : EReal)
      = ((c e * ∑ k, x e k * w k : ℝ) : EReal) := by
    intro e
    rw [EReal.coe_mul, coe_finset_sum]
    simp only [EReal.coe_mul]
  simp only [hl, hr, ← coe_finset_sum]
  congr 1
  simp only [Finset.sum_mul, Finset.mul_sum]
  rw [Finset.sum_comm]
  refine Finset.sum_congr rfl fun e _ => Finset.sum_congr rfl fun k _ => ?_
  ring

/-! ## Taking rows: a gather of whole rows of a matrix at a column of start indices -/

section Rows

variable {N R C w : Nat}

/-- The dimension numbers of `X[idx]` for `X : [N, C]` and `idx : [R, 1]`: result row `e` is the row of `X` that start
    index `idx (e, 0)` names. -/
abbrev rowGather (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the index read signed and clamped into `[0, N − 1]`. -/
def srcRow (hN : 0 < N) (idx : IVec ⟨2, ![R, 1]⟩ w) (e : Fin R) : Fin N :=
  ⟨min (idx (ix2 e (0 : Fin 1))).toInt.toNat (N - 1), by omega⟩

/-- THE ROW GATHER READ AT `(e, k)`: entry `k` of the row the start index of `e` names. -/
theorem gather_rows_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGather N R C wf) x idx (ix2 e k) = x (ix2 (srcRow hN idx e) k) := by
  unfold Host.gather
  congr 1
  funext a
  refine Fin.ext ?_
  match a with
  | ⟨0, _⟩ =>
    show (rowGather N R C wf).start (ix2 e k) idx 0 + (rowGather N R C wf).batchCoord (ix2 e k) 0
      + (rowGather N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 e k) ⟨List.idxOf (0 : Fin 2) (rowGather N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N R C wf).start (ix2 e k) idx 1 + (rowGather N R C wf).batchCoord (ix2 e k) 1
      + (rowGather N R C wf).offCoord (ix2 e k) 1 = k.val
    rw [GatherDims.batchCoord_eq_zero _ _ _ List.not_mem_nil]
    have hs : (rowGather N R C wf).start (ix2 e k) idx 1 = 0 := by
      unfold GatherDims.start
      rw [dif_neg (show ¬ (1 : Fin 2) ∈ (rowGather N R C wf).startIndexMap from
        (by decide : ¬ (1 : Fin 2) ∈ ([0] : List (Fin 2))))]
    have ho : (rowGather N R C wf).offCoord (ix2 e k) 1 = k.val := by
      unfold GatherDims.offCoord
      rw [dif_pos (show (1 : Fin 2) ∈ (rowGather N R C wf).sKept from
        (GatherDims.mem_sKept _ _).mpr ⟨(by decide : ¬ (1 : Fin 2) ∈ ([0] : List (Fin 2))), List.not_mem_nil⟩)]
      rfl
    rw [hs, ho]; simp

end Rows

/-! ## Adding rows: an accumulating scatter of whole rows at a column of target indices -/

section Scatter

variable {N R C w : Nat}

/-- The dimension numbers of `Z.at[idx].add(U)` for `Z : [N, C]`, `idx : [R, 1]`, `U : [R, C]`: update row `e` is added
    into the row of `Z` that `idx (e, 0)` names, and is dropped when that is not a row of `Z`. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable (wf : ScatterDims.WF ⟨2, ![N, C]⟩ ⟨2, ![R, 1]⟩ ⟨2, ![R, C]⟩ [1] [0] [0] 1)

/-- On the row axis an update starts at its target index, read signed and not clamped. -/
theorem scatter_start_row (idx : IVec ⟨2, ![R, 1]⟩ w) (e : Fin R) (k : Fin C) :
    (rowScatter N R C wf).start (ix2 e k) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e k) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis an update starts at column 0 … -/
theorem scatter_start_col (idx : IVec ⟨2, ![R, 1]⟩ w) (e : Fin R) (k : Fin C) :
    (rowScatter N R C wf).start (ix2 e k) idx 1 = 0 := by
  unfold ScatterDims.start
  rw [dif_neg (show ¬ (1 : Fin 2) ∈ (rowScatter N R C wf).scatterDimsToOperandDims from
    (by decide : ¬ (1 : Fin 2) ∈ ([0] : List (Fin 2))))]

/-- … its window has no extent along the rows … -/
theorem scatter_window_row (e : Fin R) (k : Fin C) : (rowScatter N R C wf).window (ix2 e k) 0 = 0 := by
  unfold ScatterDims.window
  rw [dif_neg]
  show ¬ (0 : Fin 2) ∈ (⟨2, ![N, C]⟩ : Shape).kept ([0] : List (Fin 2))
  simp [Shape.kept]

/-- … and along the columns the window coordinate is the update's own column. -/
theorem scatter_window_col (e : Fin R) (k : Fin C) : (rowScatter N R C wf).window (ix2 e k) 1 = k.val := by
  unfold ScatterDims.window
  have h1 : (1 : Fin 2) ∈ (rowScatter N R C wf).sKept := by
    show (1 : Fin 2) ∈ (⟨2, ![N, C]⟩ : Shape).kept ([0] : List (Fin 2))
    simp [Shape.kept]
  rw [dif_pos h1]
  rfl

/-- WHERE AN UPDATE LANDS: update `(e, k)` lands on `(n, k')` exactly when its target index is `n` and `k = k'`. -/
theorem resultIdx_rows_iff (idx : IVec ⟨2, ![R, 1]⟩ w) (e : Fin R) (k : Fin C) (n : Fin N) (k' : Fin C) :
    (rowScatter N R C wf).resultIdx? (ix2 e k) idx = some (ix2 n k')
      ↔ (idx (ix2 e (0 : Fin 1))).toInt = (n.val : Int) ∧ k = k' := by
  have s0 := scatter_start_row wf idx e k
  have s1 := scatter_start_col wf idx e k
  have w0 := scatter_window_row wf e k
  have w1 := scatter_window_col wf e k
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      refine ⟨?_, Fin.ext ?_⟩
      · have : ((idx (ix2 e (0 : Fin 1))).toInt + ((0 : Nat) : Int)).toNat = n.val := e0
        omega
      · have : (((0 : Int)) + ((k.val : Nat) : Int)).toNat = k'.val := e1
        omega
    · rintro ⟨hn, rfl⟩
      funext a
      refine Fin.ext ?_
      match a with
      | ⟨0, _⟩ =>
        show ((rowScatter N R C wf).start (ix2 e k) idx 0 + ((rowScatter N R C wf).window (ix2 e k) 0 : Nat)).toNat = n.val
        rw [s0, w0, hn]; simp
      | ⟨1, _⟩ =>
        show ((rowScatter N R C wf).start (ix2 e k) idx 1 + ((rowScatter N R C wf).window (ix2 e k) 1 : Nat)).toNat = k.val
        rw [s1, w1]; simp
  · rename_i h
    constructor
    · intro hf; cases hf
    · rintro ⟨hn, rfl⟩
      refine absurd (fun a => ?_) h
      match a with
      | ⟨0, _⟩ =>
        show 0 ≤ (rowScatter N R C wf).start (ix2 e k) idx 0 + ((rowScatter N R C wf).window (ix2 e k) 0 : Nat)
          ∧ (rowScatter N R C wf).start (ix2 e k) idx 0 + ((rowScatter N R C wf).window (ix2 e k) 0 : Nat) < (N : Int)
        rw [s0, w0, hn]
        have := n.isLt
        constructor <;> omega
      | ⟨1, _⟩ =>
        show 0 ≤ (rowScatter N R C wf).start (ix2 e k) idx 1 + ((rowScatter N R C wf).window (ix2 e k) 1 : Nat)
          ∧ (rowScatter N R C wf).start (ix2 e k) idx 1 + ((rowScatter N R C wf).window (ix2 e k) 1 : Nat) < (C : Int)
        rw [s1, w1]
        have := k.isLt
        constructor <;> omega

end Scatter

/-! ## The aggregation read at an index, and the law -/

section Law

variable {N R C w : Nat}

/-- THE ROW SCATTER READ AT `(n, k)`: the accumulator's entry plus column `k` of every update row whose target is `n`. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (n : Fin N) (k : Fin C) :
    Host.scatterAdd (rowScatter N R C wf) x idx upd (ix2 n k)
      = x (ix2 n k) + ∑ e ∈ Finset.univ.filter (fun e : Fin R => (idx (ix2 e (0 : Fin 1))).toInt = (n.val : Int)),
          upd (ix2 e k) := by
  simp only [Host.scatterAdd, Ideal.hostScatterAdd_def, Ideal.hostScatterAdd]
  congr 1
  rw [Finset.sum_filter, sum_idx2, Finset.sum_filter]
  refine Finset.sum_congr rfl fun e _ => ?_
  simp only [resultIdx_rows_iff wf]
  by_cases hP : (idx (ix2 e (0 : Fin 1))).toInt = (n.val : Int)
  · simp [hP]
  · simp [hP]

/-- AGGREGATION COMMUTES WITH A MATRIX PRODUCT.  With a zero accumulator, real coefficients (the same along each
    row), and real matrices `X` and `W`: aggregating the rows of `X` and then multiplying by `W` is aggregating the
    rows of `X · W`.  At `(n, j)` both sides are `∑ e, [target e = n] · c e · ∑ k, X (source e, k) · W (k, j)`. -/
theorem aggregate_dot_comm (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (prec : Option ContractPrecision)
    (Z : FVec Ideal ⟨2, ![N, C]⟩ .f32) (hZ : ∀ i, Z i = 0)
    (tgt src : IVec ⟨2, ![R, 1]⟩ w)
    (c : FVec Ideal ⟨2, ![R, C]⟩ .f32) (c0 : Fin R → ℝ) (hc : ∀ e k, c (ix2 e k) = (c0 e : EReal))
    (X : FVec Ideal ⟨2, ![N, C]⟩ .f32) (X0 : (⟨2, ![N, C]⟩ : Shape).Idx → ℝ) (hX : ∀ i, X i = (X0 i : EReal))
    (W : FVec Ideal ⟨2, ![C, C]⟩ .f32) (W0 : (⟨2, ![C, C]⟩ : Shape).Idx → ℝ) (hW : ∀ i, W i = (W0 i : EReal)) :
    Host.dotGeneral (DotDims.plain N C C) prec
        (Host.scatterAdd (rowScatter N R C wfs) Z tgt (mulf c (Host.gather (rowGather N R C wfg) X src))) W
      = Host.scatterAdd (rowScatter N R C wfs) Z tgt
          (mulf c (Host.gather (rowGather N R C wfg) (Host.dotGeneral (DotDims.plain N C C) prec X W) src)) := by
  funext i
  obtain ⟨n, j, rfl⟩ : ∃ (n : Fin N) (j : Fin C), i = ix2 n j := ⟨i 0, i 1, eq_ix2 i⟩
  rw [dotGeneral_plain_apply]
  simp only [scatterAdd_rows_apply, mulf_apply, gather_rows_apply hN, dotGeneral_plain_apply, hZ, zero_add, hc, hX, hW]
  exact sum_scaled_rows_mul _ c0 (fun e k => X0 (ix2 (srcRow hN src e) k)) (fun k => W0 (ix2 k j))

end Law

end Cert.Aggregate

end
-- ==== Proof.RealValued.lean ====
/-
  An array over the extended reals is REAL-VALUED when no entry is an infinity.  Sums and products of real-valued
  arrays obey the ring laws (distributivity in particular), which fail at the infinities; every use of the inputs'
  finiteness in this certificate goes through this predicate.
-/
import Idealize.ShloMosaic.PureOps.Ideal

noncomputable section

namespace Cert.Reals

open Idealize.ShloMosaic

/-- Every entry of the array is a real number. -/
def RealValued {S : Shape} (v : S.Idx → EReal) : Prop := ∀ i, ∃ r : ℝ, v i = (r : EReal)

/-- A real-valued array is the coercion of an array of reals. -/
theorem RealValued.exists_real {S : Shape} {v : S.Idx → EReal} (h : RealValued v) :
    ∃ f : S.Idx → ℝ, ∀ i, v i = (f i : EReal) :=
  ⟨fun i => (h i).choose, fun i => (h i).choose_spec⟩

end Cert.Reals

end
-- ==== Proof.RealWeights.lean ====
/-
  Two intermediate arrays of the reference program take only real values, whatever the other arguments hold.

  * The updated weight matrix of the gated recurrent step, W = (1 − z)·n + z·W₀, where z = 1 / (1 + exp(−s)) is the
    update gate, n = tanh(…) the candidate, and W₀ the initial weights. On the extended reals exp takes values in [0, ⊤],
    so 1 + exp(−s) lies in [1, ⊤] and its reciprocal is a real in [0, 1] (the reciprocal of ⊤ is 0); tanh takes values
    in [−1, 1] (−1 at ⊥, 1 at ⊤). Hence z and n are real whatever s and the candidate's argument are, and W is real as
    soon as W₀ is: nothing is asked of the two matrix products or of the biases.
  * The symmetric-normalisation coefficients d⁻¹ᐟ²[row]·w·d⁻¹ᐟ²[col], where w is the edge-weight vector extended by ones
    for the self-loops and d⁻¹ᐟ² = (1/√deg where deg > 0, else 0). The reciprocal square root of a positive real is a
    real and that of ⊤ is 0, so d⁻¹ᐟ² is real whatever the degrees are; an element of a gather is an element of its
    operand, and an element of a concatenation is an element of one of its pieces; so the coefficients are real as soon
    as the edge weights are.
-/
import proofs.«123973_j3770981286463_2_alg».proof.Proof.RealValued
import proofs.«123973_j3770981286463_2_alg».proof.Proof.Gen.ReferenceIdeal.Read
import Idealize.ShloMosaic.Lib.IdealHost

noncomputable section

namespace Cert.Reals

open Idealize.ShloMosaic Cert.ReferenceIdeal Cert.ReferenceIdeal.Read

/-! ## Extended reals that are real numbers -/

/-- The sum of two reals is a real. -/
theorem isReal_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

/-- The difference of two reals is a real. -/
theorem isReal_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

/-- The product of two reals is a real. -/
theorem isReal_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The hyperbolic tangent of any extended real is a real: −1 at ⊥, 1 at ⊤, tanh r at a real r. -/
theorem isReal_tanh (s : EReal) : ∃ r : ℝ, Ideal.tanh s = (r : EReal) := by
  induction s using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- The logistic function 1 / (1 + exp(−s)) of any extended real is a real: 0 at ⊥ (the divisor is ⊤), 1 at ⊤ (the
    divisor is 1), (1 + exp(−r))⁻¹ at a real r. -/
theorem isReal_logistic (s : EReal) : ∃ r : ℝ, Ideal.div 1 (1 + Ideal.exp (-s)) = (r : EReal) := by
  change ∃ r : ℝ, Ideal.logistic s = (r : EReal)
  induction s using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The guarded reciprocal square root — 1/√d where d > 0, and 0 elsewhere — of any extended real is a real: at a
    positive real d it is (√d)⁻¹, at ⊤ it is 0, and where d ≤ 0 (⊥ included) the guard answers 0. -/
theorem isReal_guarded_rsqrt (d : EReal) :
    ∃ r : ℝ, Scalar.select (Ideal.cmp .ogt d 0) (Ideal.rsqrt d) 0 = (r : EReal) := by
  by_cases h : (0 : EReal) < d
  · have hc : Ideal.cmp .ogt d 0 = 1#1 := by simp [Ideal.cmp, h]
    rw [hc, ValueIdx.select_one]
    induction d using EReal.rec with
    | bot => exact absurd h (not_lt_bot)
    | coe r =>
      have hr : 0 < r := by exact_mod_cast h
      exact ⟨(Real.sqrt r)⁻¹, by rw [Ideal.rsqrt_coe, if_neg (not_lt.mpr hr.le), if_neg hr.ne']⟩
    | top => exact ⟨0, by rw [Ideal.rsqrt_top, EReal.coe_zero]⟩
  · have hc : Ideal.cmp .ogt d 0 = 0#1 := by simp [Ideal.cmp, h]
    rw [hc, ValueIdx.select_zero]
    exact ⟨0, EReal.coe_zero.symm⟩

/-! ## Real-valued arrays are closed under the operations of the two computations -/

variable {S T : Shape}

/-- The elementwise sum of two real-valued arrays is real-valued. -/
theorem realValued_addf {a b : FVec Ideal S .f32} (ha : RealValued a) (hb : RealValued b) : RealValued (addf a b) :=
  fun i => isReal_add (ha i) (hb i)

/-- The elementwise difference of two real-valued arrays is real-valued. -/
theorem realValued_subf {a b : FVec Ideal S .f32} (ha : RealValued a) (hb : RealValued b) : RealValued (subf a b) :=
  fun i => isReal_sub (ha i) (hb i)

/-- The elementwise product of two real-valued arrays is real-valued. -/
theorem realValued_mulf {a b : FVec Ideal S .f32} (ha : RealValued a) (hb : RealValued b) : RealValued (mulf a b) :=
  fun i => isReal_mul (ha i) (hb i)

/-- The elementwise hyperbolic tangent of ANY array is real-valued. -/
theorem realValued_tanh (s : FVec Ideal S .f32) : RealValued (Host.tanh s) :=
  fun i => isReal_tanh (s i)

/-- The logistic gate 1 / (1 + exp(−s)) of ANY array s is real-valued; the two arrays of ones are whatever arrays
    read 1 everywhere. -/
theorem realValued_logistic {one one' : FVec Ideal S .f32} (h1 : ∀ i, one i = 1) (h1' : ∀ i, one' i = 1)
    (s : FVec Ideal S .f32) : RealValued (Host.divf one (addf one' (Host.exp (Host.negf s)))) := by
  intro i
  show ∃ r : ℝ, Ideal.div (one i) (one' i + Ideal.exp (-(s i))) = (r : EReal)
  rw [h1, h1']
  exact isReal_logistic (s i)

/-- The guarded reciprocal square root of ANY array d — 1/√d where d > 0, else 0 — is real-valued; the two arrays of
    zeros are whatever arrays read 0 everywhere. -/
theorem realValued_guarded_rsqrt {zero zero' : FVec Ideal S .f32} (h0 : ∀ i, zero i = 0) (h0' : ∀ i, zero' i = 0)
    (d : FVec Ideal S .f32) : RealValued (select (cmpf .ogt d zero) (Host.rsqrt d) zero') := by
  intro i
  show ∃ r : ℝ, Scalar.select (Ideal.cmp .ogt (d i) (zero i)) (Ideal.rsqrt (d i)) (zero' i) = (r : EReal)
  rw [h0, h0']
  exact isReal_guarded_rsqrt (d i)

/-- A broadcast reads its operand at some index: the broadcast of a real-valued array is real-valued. -/
theorem realValued_broadcastInDim {v : S.Idx → EReal} (hv : RealValued v) (dims : Fin S.rank → Fin T.rank)
    (h : S.BroadcastsInDim T dims) : RealValued (broadcastInDim T dims h v) :=
  fun _ => hv _

/-- Every element of a gather is the operand at SOME index (which one depends on the index array's values): a gather
    of a real-valued array is real-valued, for any dimension numbers and any index array. -/
theorem realValued_gather {SI : Shape} {w : Nat} (d : GatherDims S SI T) {v : S.Idx → EReal} (hv : RealValued v)
    (idx : IVec SI w) : RealValued (Host.gather d v idx) :=
  fun _ => hv _

/-- Every element of a concatenation is an element of one of its pieces: a concatenation of real-valued arrays is
    real-valued. -/
theorem realValued_concatenate (a : Fin T.rank) (xs : List ((s : Shape) × (s.Idx → EReal)))
    (h : Shape.Concatenates (xs.map (·.1)) T a) (hx : ∀ p ∈ xs, RealValued p.2) :
    RealValued (concatenate T a xs h) := by
  intro j
  unfold concatenate
  exact hx _ (List.getElem_mem _) _

/-! ## The constants of the program -/

/-- A broadcast scalar one reads 1 everywhere. -/
theorem v26_one (i : S128x128.Idx) : val_main_v26 (F := Ideal) i = 1 := by
  rw [val_main_v26_apply, val_main_cst_1_apply, Ideal.ofBits_def, Ideal.ofBits_one_f32]
theorem v28_one (i : S128x128.Idx) : val_main_v28 (F := Ideal) i = 1 := by
  rw [val_main_v28_apply, val_main_cst_2_apply, Ideal.ofBits_def, Ideal.ofBits_one_f32]
theorem v33_one (i : S128x128.Idx) : val_main_v33 (F := Ideal) i = 1 := by
  rw [val_main_v33_apply, val_main_cst_3_apply, Ideal.ofBits_def, Ideal.ofBits_one_f32]
theorem v45_one (i : S50000.Idx) : val_main_v45 (F := Ideal) i = 1 := by
  rw [val_main_v45_apply, val_main_cst_4_apply, Ideal.ofBits_def, Ideal.ofBits_one_f32]
/-- A broadcast scalar zero reads 0 everywhere. -/
theorem v50_zero (i : S50000.Idx) : val_main_v50 (F := Ideal) i = 0 := by
  rw [val_main_v50_apply, val_main_cst_6_apply, Ideal.ofBits_def, Ideal.ofBits_zero_f32]
theorem call0_v1_zero (i : S50000.Idx) : val_main_call0_v1 (F := Ideal) i = 0 := by
  rw [val_main_call0_v1_apply, val_main_call0_v0_apply, val_main_cst_7_apply, Ideal.ofBits_def, Ideal.ofBits_zero_f32]

/-- An array that reads 1 everywhere is real-valued. -/
theorem realValued_of_one {v : S.Idx → EReal} (h : ∀ i, v i = 1) : RealValued v :=
  fun i => ⟨1, by rw [h i, EReal.coe_one]⟩

/-! ## The updated weights -/

section Weights
variable (x3 : FVec Ideal S128x128 .f32) (x4 x5 : FVec Ideal S384x128 .f32) (x6 x7 : FVec Ideal S384 .f32)

/-- The update gate z = 1 / (1 + exp(−s)) is real-valued, whatever its argument s is. -/
theorem z_real : RealValued (val_main_v29 (F := Ideal) x3 x4 x5 x6 x7) := by
  unfold val_main_v29 val_main_v27 val_main_v25 val_main_v24
  exact realValued_logistic v28_one v26_one _

/-- The candidate n = tanh(…) is real-valued, whatever its argument is. -/
theorem n_real : RealValued (val_main_v32 (F := Ideal) x3 x4 x5 x6 x7) := by
  unfold val_main_v32
  exact realValued_tanh _

/-- **The updated weights W = (1 − z)·n + z·W₀ are real-valued once the initial weights W₀ are.** -/
theorem W_real (h3 : RealValued x3) : RealValued (val_main_v37 (F := Ideal) x3 x4 x5 x6 x7) := by
  unfold val_main_v37 val_main_v35 val_main_v36 val_main_v34
  exact realValued_addf
    (realValued_mulf (realValued_subf (realValued_of_one v33_one) (z_real x3 x4 x5 x6 x7)) (n_real x3 x4 x5 x6 x7))
    (realValued_mulf (z_real x3 x4 x5 x6 x7) h3)

end Weights

/-! ## The normalisation coefficients -/

section Norm
variable (x1 : IVec S2x600000 32) (x2 : FVec Ideal S600000 .f32)

/-- The inverse square roots of the degrees, d⁻¹ᐟ² = (1/√deg where deg > 0, else 0), are real-valued whatever the degrees
    are. -/
theorem dinv_real : RealValued (val_main_v53 (F := Ideal) x1 x2) := by
  unfold val_main_v53 val_main_v51 val_main_v52
  exact realValued_guarded_rsqrt v50_zero call0_v1_zero _

/-- The edge weights extended by ones (the self-loops) are real-valued once the edge weights are. -/
theorem ew_real (h2 : RealValued x2) : RealValued (val_main_v46 (F := Ideal) x2) := by
  unfold val_main_v46
  refine realValued_concatenate _ _ _ ?_
  intro p hp
  simp only [List.mem_cons, List.not_mem_nil, or_false] at hp
  rcases hp with rfl | rfl
  · exact h2
  · exact realValued_of_one v45_one

/-- The coefficients d⁻¹ᐟ²[row]·w·d⁻¹ᐟ²[col], as a vector, are real-valued once the edge weights are. -/
theorem norm_vec_real (h2 : RealValued x2) : RealValued (val_main_v69 (F := Ideal) x1 x2) := by
  unfold val_main_v69 val_main_v61 val_main_v60 val_main_v68
  exact realValued_mulf
    (realValued_mulf (realValued_gather _ (dinv_real x1 x2) _) (ew_real x2 h2))
    (realValued_gather _ (dinv_real x1 x2) _)

/-- **The normalisation coefficients, broadcast to a column, are real-valued once the edge weights are.** -/
theorem norm_real (h2 : RealValued x2) : RealValued (val_main_v71 (F := Ideal) x1 x2) := by
  unfold val_main_v71
  exact realValued_broadcastInDim (norm_vec_real x1 x2 h2) _ _

end Norm

end Cert.Reals

end
-- ==== Proof.RefAggregate.lean ====
/-
  The reference's aggregated rows are the aggregated node features times the evolved weights.

  The reference multiplies the node features by the evolved weights first and aggregates the product over the edges;
  aggregating the node features themselves and multiplying afterwards gives the same array, because the node
  features, the evolved weights and the edge coefficients are all real-valued (the aggregation law needs that: on
  the extended reals distributivity fails at the infinities).  The coefficient is laid along each row, so it is one
  real number per edge.
-/
import proofs.«123973_j3770981286463_2_alg».proof.Proof.Gen.ReferenceIdeal.Read
import proofs.«123973_j3770981286463_2_alg».proof.Proof.LibAggregate
import proofs.«123973_j3770981286463_2_alg».proof.Proof.RealWeights
import Idealize.ShloMosaic.PureOps.Ideal.Laws

noncomputable section

namespace Cert.RefAggregate

open Cert.ReferenceIdeal Cert.ReferenceIdeal.Gen Cert.ReferenceIdeal.Read Cert.Aggregate Cert.Reals
open Idealize.ShloMosaic Idealize.ShloMosaic.ValueIdx

/-- The reference's products are the plain `[50000, 128] × [128, 128]` product … -/
theorem dot_plain : dot_S50000x128_S128x128_S50000x128_1_0_0_1_n_n = DotDims.plain 50000 128 128 := rfl
/-- … its row gather takes whole rows … -/
theorem gather_rows : gather_S50000x128_S650000x1_S650000x128_1_0_n_n_0_1_1128
    = rowGather 50000 650000 128 gather_S50000x128_S650000x1_S650000x128_1_0_n_n_0_1_1128_wf := rfl
/-- … and its row scatter adds whole rows. -/
theorem scatter_rows : scatter_S50000x128_S650000x1_S650000x128_1_0_0_1
    = rowScatter 50000 650000 128 scatter_S50000x128_S650000x1_S650000x128_1_0_0_1_wf := rfl

/-- The accumulator the rows are added into is zero. -/
theorem acc_zero (i : S50000x128.Idx) : val_main_v81 (F := Ideal) i = 0 := by
  rw [val_main_v81_apply]
  exact Ideal.ofBits_zero_f32

/-- The coefficient array is constant along each row. -/
theorem coef_row (x1 : IVec S2x600000 32) (x2 : FVec Ideal S600000 .f32) (e : Fin 650000) (k : Fin 128) :
    val_main_v79 (F := Ideal) x1 x2 (ix2 e k) = val_main_v71 (F := Ideal) x1 x2 (ix2 e (0 : Fin 1)) := by
  rw [val_main_v79_apply]
  refine congrArg (val_main_v71 (F := Ideal) x1 x2) ?_
  funext a
  match a with
  | ⟨0, _⟩ => rfl
  | ⟨1, _⟩ => rfl

/-- AGGREGATE, THEN MULTIPLY = the reference's MULTIPLY, THEN AGGREGATE, for real-valued node features, edge weights
    and initial weights. -/
theorem aggregated_mul (x0 : FVec Ideal S50000x128 .f32) (x1 : IVec S2x600000 32) (x2 : FVec Ideal S600000 .f32)
    (x3 : FVec Ideal S128x128 .f32) (x4 x5 : FVec Ideal S384x128 .f32) (x6 x7 : FVec Ideal S384 .f32)
    (h0 : RealValued x0) (h2 : RealValued x2) (h3 : RealValued x3) :
    Host.dotGeneral (φ₁ := .f32) (φ₂ := .f32) (DotDims.plain 50000 128 128) none
        (Host.scatterAdd scatter_S50000x128_S650000x1_S650000x128_1_0_0_1 (val_main_v81 (F := Ideal)) (val_main_v82 (F := Ideal) x1)
          (mulf (val_main_v79 (F := Ideal) x1 x2)
            (Host.gather gather_S50000x128_S650000x1_S650000x128_1_0_n_n_0_1_1128 x0 (val_main_v77 (F := Ideal) x1))))
        (val_main_v37 (F := Ideal) x3 x4 x5 x6 x7 : FVec Ideal S128x128 .f32)
      = val_main_v83 (F := Ideal) x0 x1 x2 x3 x4 x5 x6 x7 := by
  obtain ⟨X0, hX⟩ := h0.exists_real
  obtain ⟨W0, hW⟩ := (W_real x3 x4 x5 x6 x7 h3).exists_real
  obtain ⟨c1, hc1⟩ := (norm_real x1 x2 h2).exists_real
  have hc : ∀ (e : Fin 650000) (k : Fin 128),
      val_main_v79 (F := Ideal) x1 x2 (ix2 e k) = ((c1 (ix2 e (0 : Fin 1)) : ℝ) : EReal) := fun e k => by
    rw [coef_row, hc1]
  unfold val_main_v83 val_main_v80 val_main_v78 val_main_v70
  rw [scatter_rows, gather_rows, dot_plain]
  exact aggregate_dot_comm (N := 50000) (R := 650000) (C := 128) (by decide) _ _ none _ acc_zero _ _ _
    (fun e => c1 (ix2 e (0 : Fin 1))) hc x0 X0 hX _ W0 hW

end Cert.RefAggregate

end
-- ==== Proof.Bridge.lean ====
/-
  The two programs' results are one array.

  The kernel's result is `max (H · W) 0 · L + b` with `H` the aggregated node features; the reference's is
  `max h 0 · L + b` with `h` the aggregated product of the node features and the evolved weights `W`.  Since
  `H · W = h` (aggregation commutes with the product, for real-valued inputs), the two agree entry by entry: the
  rectifier, the second product and the bias are the same operations on both sides.
-/
import proofs.«123973_j3770981286463_2_alg».proof.Proof.Dense
import proofs.«123973_j3770981286463_2_alg».proof.Proof.RefAggregate
import proofs.«123973_j3770981286463_2_alg».proof.Proof.LibPlainProduct

noncomputable section

namespace Cert.Bridge

open Cert.ReferenceIdeal Cert.ReferenceIdeal.Gen Cert.ReferenceIdeal.Read Cert.Reals Cert.RefAggregate
open Idealize.ShloMosaic Idealize.ShloMosaic.ValueIdx Idealize.ShloMosaic.StackMember

/-- THE RESULTS AGREE: `dense` of the aggregated node features, the evolved weights, the transposed output weights and
    any row `B` holding the bias vector, is the reference's result — for real-valued node features, edge weights and
    initial weights. -/
theorem dense_eq_reference (x0 : FVec Ideal S50000x128 .f32) (x1 : IVec S2x600000 32) (x2 : FVec Ideal S600000 .f32)
    (x3 : FVec Ideal S128x128 .f32) (x4 x5 : FVec Ideal S384x128 .f32) (x6 x7 : FVec Ideal S384 .f32)
    (x8 : FVec Ideal S128x128 .f32) (x9 : FVec Ideal S128 .f32)
    (B : FVec Ideal S1x128 .f32) (hB : ∀ j : Fin 128, B (ix2 (0 : Fin 1) j) = x9 (ix1 j))
    (h0 : RealValued x0) (h2 : RealValued x2) (h3 : RealValued x3) :
    Cert.KernelValue.dense
        (Host.scatterAdd scatter_S50000x128_S650000x1_S650000x128_1_0_0_1 (val_main_v81 (F := Ideal)) (val_main_v82 (F := Ideal) x1)
          (mulf (val_main_v79 (F := Ideal) x1 x2) (Host.gather gather_S50000x128_S650000x1_S650000x128_1_0_n_n_0_1_1128 x0 (val_main_v77 (F := Ideal) x1))))
        (val_main_v37 (F := Ideal) x3 x4 x5 x6 x7) (val_main_v85 (F := Ideal) x8) B
      = val_main_v89 (F := Ideal) x0 x1 x2 x3 x4 x5 x6 x7 x8 x9 := by
  funext i
  obtain ⟨n, j, rfl⟩ : ∃ (n : Fin 50000) (j : Fin 128), i = ix2 n j := ⟨i 0, i 1, eq_ix2 i⟩
  show Cert.KernelValue.denseAt _ _ _ _ n j = _
  unfold Cert.KernelValue.denseAt val_main_v89 val_main_v86
  rw [addf_apply, Cert.PlainProduct.dotGeneral_plain_apply' _ dot_plain]
  refine congrArg₂ (· + ·) (Finset.sum_congr rfl fun k₂ _ => ?_) ?_
  · -- the rectified entry, times the same output weight
    refine congrArg₂ (· * ·) ?_ rfl
    rw [val_main_v84_apply]
    show max _ (0 : EReal) = max _ _
    refine congrArg₂ max ?_ ?_
    · rw [← aggregated_mul x0 x1 x2 x3 x4 x5 x6 x7 h0 h2 h3, dotGeneral_plain_apply]
    · rw [val_main_call1_v0_apply]
      exact Ideal.ofBits_zero_f32.symm
  · -- the bias
    rw [hB, val_main_v88_apply, val_main_v87_apply]
    refine congrArg x9 ?_
    funext a
    match a with
    | ⟨0, _⟩ => rfl

end Cert.Bridge

end
-- ==== Proof.RealInputs.lean ====
/-
  The precondition read back: every float input is real-valued.

  The precondition is the conjunction, over the nine float inputs x, of "every entry of |x| is below +∞", each a
  reduction by `and` of the entrywise comparisons, and the claim's hypothesis says the conjunction is 1.  An extended
  real whose absolute value max x (-x) is below ⊤ is neither ⊤ nor ⊥, so it is a real number.  Only the node features,
  the edge weights and the initial weights are read back here: the others are not used downstream.
-/
import proofs.«123973_j3770981286463_2_alg».proof.Pre_finite_inputs
import proofs.«123973_j3770981286463_2_alg».proof.Proof.RealValued
import Idealize.ShloMosaic.Lib.ReduceAll
import Idealize.ShloMosaic.Lib.ValueIdx

noncomputable section

namespace Cert.Reals

open Idealize.ShloMosaic

/-- The scalar shape has exactly one index. -/
instance subsingleton_scalar_idx : Subsingleton Cert.Pre_finite_inputs.S_.Idx :=
  ⟨fun a b => funext fun d => d.elim0⟩

/-- The f32 pattern of +∞ is the top of the extended reals. -/
theorem ofBits_inf_f32 : Ideal.ofBits .f32 0x7F800000#32 = ⊤ := by simp [Ideal.ofBits, Ideal.ieee]

/-- An extended real whose absolute value is below ⊤ is a real number: it is neither ⊤ (then max x (-x) = ⊤) nor ⊥
    (then -x = ⊤). -/
theorem real_of_abs_lt_top (x : EReal) (h : max x (-x) < ⊤) : ∃ r : ℝ, x = (r : EReal) := by
  induction x using EReal.rec with
  | bot => simp at h
  | coe r => exact ⟨r, rfl⟩
  | top => simp at h

/-- The entrywise test |x| < +∞ answering 1 says x is a real number. -/
theorem real_of_cmp_abs_inf (x : EReal)
    (h : Ideal.cmp .olt (max x (-x)) (Ideal.ofBits .f32 0x7F800000#32) = 1#1) : ∃ r : ℝ, x = (r : EReal) := by
  rw [ofBits_inf_f32] at h
  refine real_of_abs_lt_top x ?_
  by_contra hn
  simp [Ideal.cmp, hn] at h

/-- An array all of whose entries pass |x| < +∞ — the reduction by `and` of the comparisons is 1 — is real-valued. -/
theorem realValued_of_all_abs_lt_inf {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (h : Host.reduce IntOp.andi
          (cmpf .olt (Host.absf x)
            (broadcastInDim S ![] hb (constant (F := Ideal) Cert.Pre_finite_inputs.S_ .f32 0x7F800000#32)))
          init hr hu ValueIdx.ix0 = 1#1) :
    RealValued x := by
  intro i
  have hi := Host.reduce_andi_all _ init hr hu ValueIdx.ix0 h i
  exact real_of_cmp_abs_inf (x i) hi

/-- The precondition gives: the node features, the edge weights and the initial weights are real-valued. -/
theorem inputs_real [Cert.Pre_finite_inputs.Facts]
    (a0 : FVec Ideal Cert.Pre_finite_inputs.S50000x128 .f32) (a1 : IVec Cert.Pre_finite_inputs.S2x600000 32)
    (a2 : FVec Ideal Cert.Pre_finite_inputs.S600000 .f32) (a3 : FVec Ideal Cert.Pre_finite_inputs.S128x128 .f32)
    (a4 a5 : FVec Ideal Cert.Pre_finite_inputs.S384x128 .f32) (a6 a7 : FVec Ideal Cert.Pre_finite_inputs.S384 .f32)
    (a8 : FVec Ideal Cert.Pre_finite_inputs.S128x128 .f32) (a9 : FVec Ideal Cert.Pre_finite_inputs.S128 .f32)
    (h : Cert.Pre_finite_inputs.fn (F := Ideal) a0 a1 a2 a3 a4 a5 a6 a7 a8 a9 = fun _ => 1#1) :
    RealValued a0 ∧ RealValued a2 ∧ RealValued a3 := by
  have h43 := congrFun h ValueIdx.ix0
  dsimp only [Cert.Pre_finite_inputs.fn, Cert.Pre_finite_inputs.fn_part1, Cert.Pre_finite_inputs.fn_part2] at h43
  -- the conjunction is a left-nested chain of `and`s; the three arrays wanted sit innermost
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, h7⟩ := IntOp.andi_eq_one.1 h8
  exact ⟨realValued_of_all_abs_lt_inf a0 _ _ _ _ h3, realValued_of_all_abs_lt_inf a2 _ _ _ _ h7,
    realValued_of_all_abs_lt_inf a3 _ _ _ _ h12⟩

end Cert.Reals

end
-- ==== Proof.Result.lean ====
/-
  The kernel's result, as the reference's function of the kernel's own arguments.

  What the region finds in its four arrays are compositions of the program's host operations (the aggregated node
  features; the evolved weights; the transposed output weights; the bias as one row).  Put into `dense`, and with the
  node features, edge weights and initial weights real-valued by the precondition, the result is the reference's
  result term of the same arguments.
-/
import proofs.«123973_j3770981286463_2_alg».proof.Proof.KernelHostW
import proofs.«123973_j3770981286463_2_alg».proof.Proof.KernelHostH
import proofs.«123973_j3770981286463_2_alg».proof.Proof.Bridge
import proofs.«123973_j3770981286463_2_alg».proof.Proof.KernelValue
import proofs.«123973_j3770981286463_2_alg».proof.Proof.RealInputs
import proofs.«123973_j3770981286463_2_alg».proof.Proof.Gen.Pre_finite_inputs

noncomputable section

namespace Cert.Result

open Cert.KernelIdeal Cert.KernelIdeal.Gen Idealize.ShloMosaic Idealize.ShloMosaic.TcCoe Idealize.SL.Sem
open Idealize.ShloMosaic.ValueIdx Cert.KernelValue Cert.KernelHost

variable (m : (ℓ : Loc nD τ sig) → Buf (Elt Ideal) ℓ)

/-- The bias row the region finds holds the bias vector. -/
theorem biasRow_apply (c : Dev nD) (j : Fin 128) :
    shapeCast S1x128 (m ((c : Thread nD τ).loc main_arg9)) shapeCasts_S128_S1x128 (ix2 (0 : Fin 1) j) = (m ((c : Thread nD τ).loc main_arg9)) (ix1 j) := by
  refine (shapeCast_addUnit_apply ![128] (m ((c : Thread nD τ).loc main_arg9)) shapeCasts_S128_S1x128 (ix2 (0 : Fin 1) j)).trans ?_
  refine congrArg (m ((c : Thread nD τ).loc main_arg9)) ?_
  funext a
  match a with
  | ⟨0, _⟩ => rfl

/-- THE KERNEL'S RESULT ARRAY is the reference's result term of the kernel's arguments, when the precondition holds of
    them. -/
theorem found_eq [Cert.Pre_finite_inputs.Facts] (c : Dev nD)
    (hp : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = fun _ => 1#1) :
    found m c = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  obtain ⟨h0, h2, h3⟩ := Cert.Reals.inputs_real _ _ _ _ _ _ _ _ _ _ hp
  rw [found_def]
  show dense (V m c main_v82) (V m c main_v37) (V m c main_v83) (V m c main_v84) = _
  rw [aggregated_eq m c, weights_eq m c, outWeights_eq m c, biasRow_eq m c]
  exact Cert.Bridge.dense_eq_reference (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ (biasRow_apply m c) h0 h2 h3

end Cert.Result

end
-- ==== Proof.lean ====
/-
  The certificate of a graph-convolution layer with evolved weights, against its reference.

  Both programs evolve a 128×128 weight matrix `W` by one gated recurrent step, compute the symmetric normalisation
  coefficients of the graph's edges (with self-loops), and end with a rectifier, a product with the transposed output
  weights and a bias.  They differ in ONE place: the kernel aggregates the node features over the edges and then
  multiplies by `W` (inside its tiled region, together with the rectifier, the second product and the bias), the
  reference multiplies the node features by `W` and then aggregates.  Aggregation is linear, so the two agree — on the
  extended reals provided the node features, the coefficients and `W` are real-valued, which follows from the
  precondition (finite inputs): the gates and the guarded reciprocal square root are real-valued whatever they are
  applied to.

  The frames are the generated ones (the reference's is its generated run with the result dropped); the idealization
  rewrote no operation, so `preserves` is `True`; `algebraic` puts the kernel's run (its result array named, then
  read as one function of what the region finds) beside the reference's generated run.
-/
import proofs.«123973_j3770981286463_2_alg».proof.Defs
import proofs.«123973_j3770981286463_2_alg».proof.Proof.Gen.Kernel
import proofs.«123973_j3770981286463_2_alg».proof.Proof.Gen.Kernel.Skeleton
import proofs.«123973_j3770981286463_2_alg».proof.Proof.Gen.Kernel.Launch
import proofs.«123973_j3770981286463_2_alg».proof.Proof.Gen.Kernel.Points
import proofs.«123973_j3770981286463_2_alg».proof.Proof.Gen.Kernel.Frame
import proofs.«123973_j3770981286463_2_alg».proof.Proof.Gen.KernelIdeal
import proofs.«123973_j3770981286463_2_alg».proof.Proof.Gen.KernelIdeal.Skeleton
import proofs.«123973_j3770981286463_2_alg».proof.Proof.Gen.KernelIdeal.Launch
import proofs.«123973_j3770981286463_2_alg».proof.Proof.Gen.KernelIdeal.Points
import proofs.«123973_j3770981286463_2_alg».proof.Proof.Gen.KernelIdeal.Frame
import proofs.«123973_j3770981286463_2_alg».proof.Proof.Gen.ReferenceIdeal
import proofs.«123973_j3770981286463_2_alg».proof.Proof.Gen.Pre_finite_inputs
import proofs.«123973_j3770981286463_2_alg».proof.Proof.Gen.KernelIdeal.Value
import proofs.«123973_j3770981286463_2_alg».proof.Proof.Gen.ReferenceIdeal.Run
import proofs.«123973_j3770981286463_2_alg».proof.Proof.Gen.ReferenceIdeal.Read
import proofs.«123973_j3770981286463_2_alg».proof.Proof.KernelValue
import proofs.«123973_j3770981286463_2_alg».proof.Proof.Result
import Idealize.ShloMosaic.Adequacy
import Idealize.ShloMosaic.Init

noncomputable section

namespace Cert.Proof

open Idealize.ShloMosaic Idealize.SL.Sem Cert.Kernel

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its generated run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the extended reals the kernel's result array ends at `dense` of what its region finds, which is the reference's
    result term of the same arguments (`Cert.Result.found_eq`, by the precondition); the reference's generated run ends
    at that term of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelValue.found m c, ?_, ?_⟩
  · exact (θ_run Cert.KernelIdeal.defs _ _).mono
      (fun r h c => ⟨(h c).1.trans (Cert.KernelValue.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v89_eq, a0, a1, a2, a3, a4, a5, a6, a7, a8, a9]
    haveI : Cert.Pre_finite_inputs.Facts := Cert.Pre_finite_inputs.Gen.facts
    exact (Cert.Result.found_eq m c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
